-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S12288x4096 : Shape := ⟨2, ![12288, 4096]⟩
abbrev S4096x12288 : Shape := ⟨2, ![4096, 12288]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S12288x4096 : S_.BroadcastsInDim S12288x4096 (![] : Fin 0 → Fin S12288x4096.rank)
  reducesTo_S12288x4096_S_d0_1 : S12288x4096.ReducesTo [0, 1] S_
  bcast_S_S4096x12288 : S_.BroadcastsInDim S4096x12288 (![] : Fin 0 → Fin S4096x12288.rank)
  reducesTo_S4096x12288_S_d0_1 : S4096x12288.ReducesTo [0, 1] S_

variable [Facts]

def fn_part1 {F : FTy → Type} [FloatOps F] (main_v13 : IVec S_ 1) (main_v16 : IVec S4096x12288 1) : IVec S_ 1 :=
  let main_c_5 : IVec S_ 1 := constantI S_ 1 1#1
  let main_v17 : IVec S_ 1 := (fun x v => Host.reduce IntOp.andi x v reducesTo_S4096x12288_S_d0_1 h_S_) main_v16 main_c_5
  let main_v18 : IVec S_ 1 := andi main_v13 main_v17
  main_v18

def fn {F : FTy → Type} [FloatOps F] (main_arg0 : FVec F S8192x4096 .f32) (main_arg1 : FVec F S12288x4096 .f32) (main_arg2 : FVec F S12288x4096 .f32) (main_arg3 : FVec F S4096x12288 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S12288x4096 .f32 := Host.absf main_arg1
  let main_cst_0 : FVec F S_ .f32 := constant S_ .f32 0x7F800000#32
  let main_v5 : FVec F S12288x4096 .f32 := broadcastInDim S12288x4096 ![] bcast_S_S12288x4096 main_cst_0
  let main_v6 : IVec S12288x4096 1 := cmpf .olt main_v4 main_v5
  let main_c_1 : IVec S_ 1 := constantI S_ 1 1#1
  let main_v7 : IVec S_ 1 := (fun x v => Host.reduce IntOp.andi x v reducesTo_S12288x4096_S_d0_1 h_S_) main_v6 main_c_1
  let main_v8 : IVec S_ 1 := andi main_v3 main_v7
  let main_v9 : FVec F S12288x4096 .f32 := Host.absf main_arg2
  let main_cst_2 : FVec F S_ .f32 := constant S_ .f32 0x7F800000#32
  let main_v10 : FVec F S12288x4096 .f32 := broadcastInDim S12288x4096 ![] bcast_S_S12288x4096 main_cst_2
  let main_v11 : IVec S12288x4096 1 := cmpf .olt main_v9 main_v10
  let main_c_3 : IVec S_ 1 := constantI S_ 1 1#1
  let main_v12 : IVec S_ 1 := (fun x v => Host.reduce IntOp.andi x v reducesTo_S12288x4096_S_d0_1 h_S_) main_v11 main_c_3
  let main_v13 : IVec S_ 1 := andi main_v8 main_v12
  let main_v14 : FVec F S4096x12288 .f32 := Host.absf main_arg3
  let main_cst_4 : FVec F S_ .f32 := constant S_ .f32 0x7F800000#32
  let main_v15 : FVec F S4096x12288 .f32 := broadcastInDim S4096x12288 ![] bcast_S_S4096x12288 main_cst_4
  let main_v16 : IVec S4096x12288 1 := cmpf .olt main_v14 main_v15
  fn_part1 (F := F) main_v13 main_v16
-- ==== Kernel.lean ====
abbrev S8192x4096 : Shape := ⟨2, ![8192, 4096]⟩
abbrev S12288x4096 : Shape := ⟨2, ![12288, 4096]⟩
abbrev S4096x12288 : Shape := ⟨2, ![4096, 12288]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S12288x4096, .f32⟩
  | .hbm, ⟨3, _⟩ => ⟨S4096x12288, .f32⟩
  | .hbm, ⟨4, _⟩ => ⟨S8192x4096, .bf16⟩
  | .hbm, ⟨5, _⟩ => ⟨S12288x4096, .bf16⟩
  | .hbm, ⟨6, _⟩ => ⟨S12288x4096, .bf16⟩
  | .hbm, ⟨7, _⟩ => ⟨S4096x12288, .bf16⟩
  | .hbm, ⟨8, _⟩ => ⟨S8192x4096, .f32⟩
  | .local _ .vmem, ⟨0, _⟩ => ⟨S512x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S4096x256, .bf16⟩
  | .local _ .vmem, ⟨6, _⟩ => ⟨S4096x256, .bf16⟩
  | .local _ .vmem, ⟨7, _⟩ => ⟨S512x4096, .f32⟩
  | .local _ .vmem, ⟨8, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  dot_S512x4096_S256x4096_S512x256_1_1_0_0_n_n_wf : DotDims.WF S512x4096 S256x4096 S512x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S12288x4096.size a
  hwx0_1 : ∀ i : grid0.Coords, EltTy.bits .bf16 = 32 ∨ (Rect.block (s := S12288x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S12288x4096.size a
  hwx0_2 : ∀ i : grid0.Coords, EltTy.bits .bf16 = 32 ∨ (Rect.block (s := S12288x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x12288.size a
  hwx0_3 : ∀ i : grid0.Coords, EltTy.bits .bf16 = 32 ∨ (Rect.block (s := S4096x12288) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S8192x4096.size a
  hwx0_4 : ∀ i : grid0.Coords, EltTy.bits .f32 = 32 ∨ (Rect.block (s := S8192x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S12288x4096 : Shape := ⟨2, ![12288, 4096]⟩
abbrev S4096x12288 : Shape := ⟨2, ![4096, 12288]⟩
abbrev S8192x12288 : Shape := ⟨2, ![8192, 12288]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S12288x4096, .f32⟩
  | .hbm, ⟨2, _⟩ => ⟨S12288x4096, .f32⟩
  | .hbm, ⟨3, _⟩ => ⟨S4096x12288, .f32⟩
  | .hbm, ⟨4, _⟩ => ⟨S8192x12288, .f32⟩
  | .hbm, ⟨5, _⟩ => ⟨S8192x12288, .f32⟩
  | .hbm, ⟨6, _⟩ => ⟨S8192x12288, .f32⟩
  | .hbm, ⟨7, _⟩ => ⟨S8192x12288, .f32⟩
  | .hbm, ⟨8, _⟩ => ⟨S_, .f32⟩
  | .hbm, ⟨9, _⟩ => ⟨S8192x12288, .f32⟩
  | .hbm, ⟨10, _⟩ => ⟨S8192x12288, .f32⟩
  | .hbm, ⟨11, _⟩ => ⟨S_, .f32⟩
  | .hbm, ⟨12, _⟩ => ⟨S8192x12288, .f32⟩
  | .hbm, ⟨13, _⟩ => ⟨S8192x12288, .f32⟩
  | .hbm, ⟨14, _⟩ => ⟨S8192x12288, .f32⟩
  | .hbm, ⟨15, _⟩ => ⟨S8192x12288, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8192x12288 : S_.BroadcastsInDim S8192x12288 (![] : Fin 0 → Fin S8192x12288.rank)
  dot_S8192x4096_S12288x4096_S8192x12288_1_1_0_0_n_n_wf : DotDims.WF S8192x4096 S12288x4096 S8192x12288 [1] [1] [0] [0] [] []
  dot_S8192x12288_S4096x12288_S8192x4096_1_1_0_0_n_n_wf : DotDims.WF S8192x12288 S4096x12288 S8192x4096 [1] [1] [0] [0] [] []

variable [Facts₀]

def dot_S8192x4096_S12288x4096_S8192x12288_1_1_0_0_n_n : DotDims S8192x4096 S12288x4096 S8192x12288 where
  lhsContracting := [1]
  rhsContracting := [1]
  lhsNonContracting := [0]
  rhsNonContracting := [0]
  lhsBatch := []
  rhsBatch := []
  wf := dot_S8192x4096_S12288x4096_S8192x12288_1_1_0_0_n_n_wf
def dot_S8192x12288_S4096x12288_S8192x4096_1_1_0_0_n_n : DotDims S8192x12288 S4096x12288 S8192x4096 where
  lhsContracting := [1]
  rhsContracting := [1]
  lhsNonContracting := [0]
  rhsNonContracting := [0]
  lhsBatch := []
  rhsBatch := []
  wf := dot_S8192x12288_S4096x12288_S8192x4096_1_1_0_0_n_n_wf

class Facts : Prop extends Facts₀ where

variable [Facts]
-- ==== Proof.Spec.lean ====
/-
  The gated two-layer perceptron as one function of its four matrices, over the extended reals.

  For a token matrix x (T rows, H columns), two projection matrices wg and wu (I rows, H columns each) and an output
  matrix wd (O rows, I columns):

    g(t, i) = Σ_j x(t, j) · wg(i, j)            u(t, i) = Σ_j x(t, j) · wu(i, j)
    hidden(t, i) = (g(t, i) · σ(g(t, i))) · u(t, i)          with σ(z) = 1 / (1 + e^(−z))
    out(t, q) = Σ_i hidden(t, i) · wd(q, i)

  Every product contracts the LAST axis of both factors. The one law proved here: cutting the hidden axis into tiles
  (any bijection between tile × position-in-tile and the hidden axis), the sum over the tiles of the same function of
  the tiles' rows and columns is the function of the whole matrices. It is a re-indexing of one finite sum in a
  commutative monoid, so it holds at the infinities too and asks nothing of the entries.
-/
import Idealize.ShloMosaic.PureOps.Ideal
import Idealize.ShloMosaic.Lib.ValueIdx

noncomputable section

namespace GatedMlp

open Idealize.ShloMosaic Idealize.ShloMosaic.ValueIdx

/-- A matrix of extended reals with `r` rows and `c` columns; entry (p, q) sits at the index `ix2 p q`. -/
abbrev Mat (r c : Nat) : Type := (⟨2, ![r, c]⟩ : Shape).Idx → EReal

/-- Entry (p, q) of a · bᵀ: row p of `a` against row q of `b`. -/
def rowDot {M N K : Nat} (a : Mat M K) (b : Mat N K) (p : Fin M) (q : Fin N) : EReal :=
  ∑ j : Fin K, a (ix2 p j) * b (ix2 q j)

/-- The gate: g · σ(g) · u. -/
def gated (g u : EReal) : EReal := g * Ideal.logistic g * u

/-- The hidden activation at token t and hidden unit i. -/
def hidden {T H I : Nat} (x : Mat T H) (wg wu : Mat I H) (t : Fin T) (i : Fin I) : EReal :=
  gated (rowDot x wg t i) (rowDot x wu t i)

/-- The output entry at token t and output column q. -/
def outAt {T H I O : Nat} (x : Mat T H) (wg wu : Mat I H) (wd : Mat O I) (t : Fin T) (q : Fin O) : EReal :=
  ∑ i : Fin I, hidden x wg wu t i * wd (ix2 q i)

/-- The whole output matrix. -/
def out {T H I O : Nat} (x : Mat T H) (wg wu : Mat I H) (wd : Mat O I) : Mat T O :=
  fun j => outAt x wg wu wd (j 0) (j 1)

theorem out_apply {T H I O : Nat} (x : Mat T H) (wg wu : Mat I H) (wd : Mat O I) (t : Fin T) (q : Fin O) :
    out x wg wu wd (ix2 t q) = outAt x wg wu wd t q := rfl

/-- THE TILE LAW. Let `e` number the hidden axis by (tile s, position k). If for every tile s the matrices
    `xb s`, `wgb s`, `wub s`, `wdb s` hold, on row `tb` resp. on their rows and columns k, the entries of the whole
    matrices on row `t` resp. on hidden unit `e (s, k)`, then the tiles' outputs at (tb, q) add up to the whole
    output at (t, q). -/
theorem sum_tiles {T H I O Tb J K : Nat}
    (x : Mat T H) (wg wu : Mat I H) (wd : Mat O I)
    (xb : Fin J → Mat Tb H) (wgb wub : Fin J → Mat K H) (wdb : Fin J → Mat O K)
    (t : Fin T) (tb : Fin Tb) (q : Fin O) (e : Fin J × Fin K ≃ Fin I)
    (hx : ∀ s j, xb s (ix2 tb j) = x (ix2 t j))
    (hg : ∀ s k j, wgb s (ix2 k j) = wg (ix2 (e (s, k)) j))
    (hu : ∀ s k j, wub s (ix2 k j) = wu (ix2 (e (s, k)) j))
    (hd : ∀ s k, wdb s (ix2 q k) = wd (ix2 q (e (s, k)))) :
    ∑ s : Fin J, outAt (xb s) (wgb s) (wub s) (wdb s) tb q = outAt x wg wu wd t q := by
  unfold outAt
  rw [← Equiv.sum_comp e (fun i => hidden x wg wu t i * wd (ix2 q i)), Fintype.sum_prod_type]
  refine Finset.sum_congr rfl fun s _ => Finset.sum_congr rfl fun k _ => ?_
  unfold hidden rowDot
  simp only [hx, hg, hu, hd]

end GatedMlp

end
-- ==== Proof.RefSpec.lean ====
/-
  The reference computes the gated perceptron of Spec.lean.

  Its four host stages are two row-by-row products g = x · wgᵀ and u = x · wuᵀ, the gate g · (1 / (1 + e^(−g))) · u
  written out with a negation, an exponential, an addition to the constant one and a division of the constant one,
  and a last row-by-row product with wd. Over the extended reals the written-out quotient is the logistic function
  by its definition, the constant word 0x3F800000 is the number one, and each product is the plain sum over the
  contracted axis.
-/
import proofs.«134090_j20383914787225_2_alg».proof.Proof.Gen.ReferenceIdeal.Read
import proofs.«134090_j20383914787225_2_alg».proof.Proof.Spec

noncomputable section

namespace Cert.ReferenceIdeal.RefSpec

open Cert.ReferenceIdeal Cert.ReferenceIdeal.Gen Idealize.ShloMosaic Idealize.ShloMosaic.ValueIdx GatedMlp

/-- The single-precision word 0x3F800000 is the number one. -/
theorem one_bits : Ideal.ofBits .f32 0x3F800000#32 = 1 := by
  simp [Ideal.ofBits, Ideal.ieee, -EReal.coe_mul]; norm_num

/-- The first product at (t, k): row t of x against row k of wg. -/
theorem g_apply (x0 : Mat 8192 4096) (x1 : Mat 12288 4096) (t : Fin 8192) (k : Fin 12288) :
    Read.val_main_v0 (F := Ideal) x0 x1 (ix2 t k) = rowDot x0 x1 t k := by
  rw [Read.val_main_v0_apply]
  unfold rowDot
  refine Finset.sum_congr rfl fun j _ => ?_
  have el : Read.lidx_main_v0 (ix2 t k) j = ix2 t j :=
    funext fun a => Fin.ext (by match a with | ⟨0, _⟩ => rfl | ⟨1, _⟩ => rfl)
  have er : Read.ridx_main_v0 (ix2 t k) j = ix2 k j :=
    funext fun a => Fin.ext (by match a with | ⟨0, _⟩ => rfl | ⟨1, _⟩ => rfl)
  rw [el, er]

/-- The second product at (t, k): row t of x against row k of wu. -/
theorem u_apply (x0 : Mat 8192 4096) (x2 : Mat 12288 4096) (t : Fin 8192) (k : Fin 12288) :
    Read.val_main_v1 (F := Ideal) x0 x2 (ix2 t k) = rowDot x0 x2 t k := by
  rw [Read.val_main_v1_apply]
  unfold rowDot
  refine Finset.sum_congr rfl fun j _ => ?_
  have el : Read.lidx_main_v1 (ix2 t k) j = ix2 t j :=
    funext fun a => Fin.ext (by match a with | ⟨0, _⟩ => rfl | ⟨1, _⟩ => rfl)
  have er : Read.ridx_main_v1 (ix2 t k) j = ix2 k j :=
    funext fun a => Fin.ext (by match a with | ⟨0, _⟩ => rfl | ⟨1, _⟩ => rfl)
  rw [el, er]

/-- The gated stage at (t, k) is the hidden activation: the written-out 1 / (1 + e^(−g)) is the logistic function. -/
theorem hidden_apply (x0 : Mat 8192 4096) (x1 x2 : Mat 12288 4096) (t : Fin 8192) (k : Fin 12288) :
    Read.val_main_v3 (F := Ideal) x0 x1 x2 (ix2 t k) = hidden x0 x1 x2 t k := by
  simp only [Read.val_main_v3_apply, Read.val_main_v2_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply, g_apply, u_apply,
    Ideal.mulf_def, Ideal.hostDivf_def, Ideal.addf_def, Ideal.hostUnary_exp_def, Ideal.hostNegf_def, Ideal.negf_def,
    Ideal.ofBits_def, one_bits]
  rfl

/-- The reference's last stage is the gated perceptron of its four arguments. -/
theorem ref_eq (x0 : Mat 8192 4096) (x1 x2 : Mat 12288 4096) (x3 : Mat 4096 12288) :
    Read.val_main_v4 (F := Ideal) x0 x1 x2 x3 = out x0 x1 x2 x3 := by
  funext i
  obtain ⟨t, q, rfl⟩ : ∃ (t : Fin 8192) (q : Fin 4096), i = ix2 t q := ⟨i 0, i 1, eq_ix2 i⟩
  rw [Read.val_main_v4_apply, out_apply]
  unfold outAt
  refine Finset.sum_congr rfl fun k _ => ?_
  have el : Read.lidx_main_v4 (ix2 t q) k = ix2 t k :=
    funext fun a => Fin.ext (by match a with | ⟨0, _⟩ => rfl | ⟨1, _⟩ => rfl)
  have er : Read.ridx_main_v4 (ix2 t q) k = ix2 q k :=
    funext fun a => Fin.ext (by match a with | ⟨0, _⟩ => rfl | ⟨1, _⟩ => rfl)
  rw [el, er, hidden_apply]

end Cert.ReferenceIdeal.RefSpec

end
-- ==== Proof.TileBody.lean ====
/-
  What the kernel body adds to its output block at one grid point, over the extended reals.

  At a point the body holds a block of 512 token rows `x0`, a tile of 256 rows of each projection matrix (`x1`, `x2`)
  and the matching 256 columns of the output matrix (`x3`). It forms the two row-by-row products of the token rows
  with the tile rows (each into a zero accumulator, so each is the plain sum over the 4096 contracted columns),
  gates them (g · σ(g) · u; the narrowing of the gated values to half precision is the identity on extended reals),
  multiplies the result row-by-row with the output-matrix tile, and adds that to what the block held. So the stored
  block is the previous contents plus the gated perceptron of Spec.lean, evaluated on the tile.
-/
import proofs.«134090_j20383914787225_2_alg».proof.Proof.Gen.KernelIdeal.Skeleton
import proofs.«134090_j20383914787225_2_alg».proof.Proof.Spec
import Idealize.ShloMosaic.Lib.ValueIdx
import Idealize.ShloMosaic.Lib.Pipeline.Value
import Idealize.ShloMosaic.PureOps.Ideal.Laws

noncomputable section

namespace Cert.KernelIdeal.TileBody

open Cert.KernelIdeal Cert.KernelIdeal.Gen Idealize.ShloMosaic Idealize.ShloMosaic.ValueIdx GatedMlp

/-! ## The projections: 512 × 4096 against 256 × 4096, contracting the columns of both -/

theorem proj_lhs0 (i : S512x256.Idx) (q : dot_S512x4096_S256x4096_S512x256_1_1_0_0_n_n.contr.Idx) : (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl

theorem proj_rhs0 (i : S512x256.Idx) (q : dot_S512x4096_S256x4096_S512x256_1_1_0_0_n_n.contr.Idx) : (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl

/-- A projection into the zero accumulator, at (p, k): row p of the token block against row k of the tile. -/
theorem proj_apply (a : FVec Ideal S512x4096 .bf16) (b : FVec Ideal S256x4096 .bf16) (p : Fin 512) (k : Fin 256) :
    matmul dot_S512x4096_S256x4096_S512x256_1_1_0_0_n_n none a b (constant S512x256 .f32 0x00000000#32) (ix2 p k) = rowDot a b p k := by
  simp only [matmul]
  rw [Ideal.matmul_constant_zero_apply, ← Equiv.sum_comp (contrEquiv1 dot_S512x4096_S256x4096_S512x256_1_1_0_0_n_n 4096 rfl rfl).symm]
  unfold rowDot
  refine Finset.sum_congr rfl fun j _ => ?_
  have hj := contrEquiv1_symm_val dot_S512x4096_S256x4096_S512x256_1_1_0_0_n_n 4096 rfl rfl j
  have el : dot_S512x4096_S256x4096_S512x256_1_1_0_0_n_n.lhsIdx (ix2 p k) ((contrEquiv1 dot_S512x4096_S256x4096_S512x256_1_1_0_0_n_n 4096 rfl rfl).symm j) = ix2 p j :=
    funext fun a => Fin.ext (by
      match a with
      | ⟨0, _⟩ => exact proj_lhs0 _ _
      | ⟨1, _⟩ => exact (dot_S512x4096_S256x4096_S512x256_1_1_0_0_n_n.lhsIdx_val_of_single rfl _ _).trans hj)
  have er : dot_S512x4096_S256x4096_S512x256_1_1_0_0_n_n.rhsIdx (ix2 p k) ((contrEquiv1 dot_S512x4096_S256x4096_S512x256_1_1_0_0_n_n 4096 rfl rfl).symm j) = ix2 k j :=
    funext fun a => Fin.ext (by
      match a with
      | ⟨0, _⟩ => exact proj_rhs0 _ _
      | ⟨1, _⟩ => exact (dot_S512x4096_S256x4096_S512x256_1_1_0_0_n_n.rhsIdx_val_of_single rfl _ _).trans hj)
  rw [el, er]

/-! ## The output product: 512 × 256 against 4096 × 256, contracting the columns of both -/

theorem down_lhs0 (i : S512x4096.Idx) (q : dot_S512x256_S4096x256_S512x4096_1_1_0_0_n_n.contr.Idx) : (dot_S512x256_S4096x256_S512x4096_1_1_0_0_n_n.lhsIdx i q 0).val = (i 0).val := by
  unfold DotDims.lhsIdx
  rw [dif_neg (show ¬(0 : Fin S512x256.rank) ∈ dot_S512x256_S4096x256_S512x4096_1_1_0_0_n_n.lhsBatch by decide),
    dif_pos (show (0 : Fin S512x256.rank) ∈ dot_S512x256_S4096x256_S512x4096_1_1_0_0_n_n.lhsNonContracting by decide)]
  rfl

theorem down_rhs0 (i : S512x4096.Idx) (q : dot_S512x256_S4096x256_S512x4096_1_1_0_0_n_n.contr.Idx) : (dot_S512x256_S4096x256_S512x4096_1_1_0_0_n_n.rhsIdx i q 0).val = (i 1).val := by
  unfold DotDims.rhsIdx
  rw [dif_neg (show ¬(0 : Fin S4096x256.rank) ∈ dot_S512x256_S4096x256_S512x4096_1_1_0_0_n_n.rhsBatch by decide),
    dif_pos (show (0 : Fin S4096x256.rank) ∈ dot_S512x256_S4096x256_S512x4096_1_1_0_0_n_n.rhsNonContracting by decide)]
  rfl

/-- The output product into the zero accumulator, at (p, q): row p of the gated tile against row q of the
    output-matrix tile. -/
theorem down_apply (a : FVec Ideal S512x256 .bf16) (b : FVec Ideal S4096x256 .bf16) (p : Fin 512) (q : Fin 4096) :
    matmul dot_S512x256_S4096x256_S512x4096_1_1_0_0_n_n none a b (constant S512x4096 .f32 0x00000000#32) (ix2 p q) = ∑ k : Fin 256, a (ix2 p k) * b (ix2 q k) := by
  simp only [matmul]
  rw [Ideal.matmul_constant_zero_apply, ← Equiv.sum_comp (contrEquiv1 dot_S512x256_S4096x256_S512x4096_1_1_0_0_n_n 256 rfl rfl).symm]
  refine Finset.sum_congr rfl fun j _ => ?_
  have hj := contrEquiv1_symm_val dot_S512x256_S4096x256_S512x4096_1_1_0_0_n_n 256 rfl rfl j
  have el : dot_S512x256_S4096x256_S512x4096_1_1_0_0_n_n.lhsIdx (ix2 p q) ((contrEquiv1 dot_S512x256_S4096x256_S512x4096_1_1_0_0_n_n 256 rfl rfl).symm j) = ix2 p j :=
    funext fun a => Fin.ext (by
      match a with
      | ⟨0, _⟩ => exact down_lhs0 _ _
      | ⟨1, _⟩ => exact (dot_S512x256_S4096x256_S512x4096_1_1_0_0_n_n.lhsIdx_val_of_single rfl _ _).trans hj)
  have er : dot_S512x256_S4096x256_S512x4096_1_1_0_0_n_n.rhsIdx (ix2 p q) ((contrEquiv1 dot_S512x256_S4096x256_S512x4096_1_1_0_0_n_n 256 rfl rfl).symm j) = ix2 q j :=
    funext fun a => Fin.ext (by
      match a with
      | ⟨0, _⟩ => exact down_rhs0 _ _
      | ⟨1, _⟩ => exact (dot_S512x256_S4096x256_S512x4096_1_1_0_0_n_n.rhsIdx_val_of_single rfl _ _).trans hj)
  rw [el, er]

/-! ## The two stored values -/

/-- The logistic function of a vector, read at an index. -/
theorem logistic_apply {s : Shape} {φ : FTy} (v : FVec Ideal s φ) (i : s.Idx) : logistic v i = Ideal.logistic (v i) := rfl

/-- The value stored at a reduction's first point before anything is added: zero everywhere. -/
theorem zero_apply (y : S512x4096.Idx) : k0_pay1 (F := Ideal) y = 0 := by
  unfold k0_pay1
  show Ideal.ofBits .f32 0x00000000#32 = 0
  exact Ideal.ofBits_zero_f32

/-- The value stored at every point, at (p, q): what the block held plus the tile's gated perceptron. -/
theorem step_apply (x0 : Vec Ideal S512x4096 .bf16) (x1 x2 : Vec Ideal S256x4096 .bf16) (x3 : Vec Ideal S4096x256 .bf16)
    (acc : Vec Ideal S512x4096 .f32) (p : Fin 512) (q : Fin 4096) :
    k0_pay2 (F := Ideal) x0 x1 x0 x2 x3 acc (ix2 p q) = acc (ix2 p q) + outAt x0 x1 x2 x3 p q := by
  unfold k0_pay2
  simp only [shapeCast_self]
  rw [addf_apply, down_apply]
  unfold outAt GatedMlp.hidden gated
  refine congrArg (acc (ix2 p q) + ·) (Finset.sum_congr rfl fun k _ => ?_)
  rw [truncf_apply, mulf_apply, mulf_apply, logistic_apply, proj_apply, proj_apply]

end Cert.KernelIdeal.TileBody

end
-- ==== Proof.Blocks.lean ====
/-
  The four input blocks of a grid point, as entries of the argument matrices.

  Before the grid starts the four arguments are narrowed to half precision, which is the identity on extended reals:
  the arrays the grid reads are the arguments themselves. The grid has 16 × 48 points, point n = 48·r + s being row
  block r and hidden tile s. At that point

    the token block       is rows    512·r … 512·r + 511  of x       (all 4096 columns),
    the two weight tiles  are rows   256·s … 256·s + 255  of wg, wu  (all 4096 columns),
    the output tile       is columns 256·s … 256·s + 255  of wd      (all 4096 rows).

  A block's entry at a place inside the block is the array's entry at block index × block extent + the place, on
  each axis; which block index a point has on each axis is decided once over the 768 points.
-/
import proofs.«134090_j20383914787225_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arrays the grid reads are the arguments -/

theorem arr0 (c : Dev nD) : (V m c main_v0 : S8192x4096.Idx → EReal) = m ((c : Thread nD τ).loc main_arg0) := by
  dsimp only [Gen.V, Gen.hostOps0]; after_results; rfl

theorem arr1 (c : Dev nD) : (V m c main_v1 : S12288x4096.Idx → EReal) = m ((c : Thread nD τ).loc main_arg1) := by
  dsimp only [Gen.V, Gen.hostOps0]; after_results; rfl

theorem arr2 (c : Dev nD) : (V m c main_v2 : S12288x4096.Idx → EReal) = m ((c : Thread nD τ).loc main_arg2) := by
  dsimp only [Gen.V, Gen.hostOps0]; after_results; rfl

theorem arr3 (c : Dev nD) : (V m c main_v3 : S4096x12288.Idx → EReal) = m ((c : Thread nD τ).loc main_arg3) := by
  dsimp only [Gen.V, Gen.hostOps0]; after_results; rfl

/-! ## Which block each point reads -/

/-- Point n reads token block n / 48 and, of both weight matrices and of the output matrix, tile n mod 48. -/
theorem block_of_point : ∀ t : Fin cfg0.N,
    win0_0.index t (0 : Fin 2) = t.val / 48 ∧ win0_0.index t (1 : Fin 2) = 0
    ∧ win0_1.index t (0 : Fin 2) = t.val % 48 ∧ win0_1.index t (1 : Fin 2) = 0
    ∧ win0_2.index t (0 : Fin 2) = t.val % 48 ∧ win0_2.index t (1 : Fin 2) = 0
    ∧ win0_3.index t (0 : Fin 2) = 0 ∧ win0_3.index t (1 : Fin 2) = t.val % 48 :=
  (by decide +kernel : ∀ t : Fin grid0.N, _)

/-! ## The blocks' entries -/

/-- The token block at point t, place (p, j): the token matrix at row 512·(t / 48) + p, column j. -/
theorem tokens_apply (c : Dev nD) (t : Fin cfg0.N) (p : Fin 512) (j : Fin 4096) (r : Fin 8192)
    (hr : r.val = 512 * (t.val / 48) + p.val) :
    iblk m c 0 t (ix2 p j) = m ((c : Thread nD τ).loc main_arg0) (ix2 r j) := by
  obtain ⟨e0, e1, -⟩ := block_of_point t
  have hi : ((cfg0.win 0).blk t).view.emb (ix2 p j) = ix2 r j := by
    funext a; apply Fin.ext
    match a with
    | ⟨0, _⟩ => show win0_0.index t (0 : Fin 2) * 512 + 1 * p.val = r.val; omega
    | ⟨1, _⟩ => show win0_0.index t (1 : Fin 2) * 4096 + 1 * j.val = j.val; omega
  show (V m c main_v0 : S8192x4096.Idx → EReal) (((cfg0.win 0).blk t).view.emb (ix2 p j)) = _
  rw [hi, arr0]

/-- The gate-weight tile at point t, place (k, j): the gate matrix at row 256·(t mod 48) + k, column j. -/
theorem gate_apply (c : Dev nD) (t : Fin cfg0.N) (k : Fin 256) (j : Fin 4096) (i : Fin 12288)
    (hi' : i.val = 256 * (t.val % 48) + k.val) :
    iblk m c 1 t (ix2 k j) = m ((c : Thread nD τ).loc main_arg1) (ix2 i j) := by
  obtain ⟨-, -, e0, e1, -⟩ := block_of_point t
  have hi : ((cfg0.win 1).blk t).view.emb (ix2 k j) = ix2 i j := by
    funext a; apply Fin.ext
    match a with
    | ⟨0, _⟩ => show win0_1.index t (0 : Fin 2) * 256 + 1 * k.val = i.val; omega
    | ⟨1, _⟩ => show win0_1.index t (1 : Fin 2) * 4096 + 1 * j.val = j.val; omega
  show (V m c main_v1 : S12288x4096.Idx → EReal) (((cfg0.win 1).blk t).view.emb (ix2 k j)) = _
  rw [hi, arr1]

/-- The up-weight tile at point t, place (k, j): the up matrix at row 256·(t mod 48) + k, column j. -/
theorem up_apply (c : Dev nD) (t : Fin cfg0.N) (k : Fin 256) (j : Fin 4096) (i : Fin 12288)
    (hi' : i.val = 256 * (t.val % 48) + k.val) :
    iblk m c 2 t (ix2 k j) = m ((c : Thread nD τ).loc main_arg2) (ix2 i j) := by
  obtain ⟨-, -, -, -, e0, e1, -⟩ := block_of_point t
  have hi : ((cfg0.win 2).blk t).view.emb (ix2 k j) = ix2 i j := by
    funext a; apply Fin.ext
    match a with
    | ⟨0, _⟩ => show win0_2.index t (0 : Fin 2) * 256 + 1 * k.val = i.val; omega
    | ⟨1, _⟩ => show win0_2.index t (1 : Fin 2) * 4096 + 1 * j.val = j.val; omega
  show (V m c main_v2 : S12288x4096.Idx → EReal) (((cfg0.win 2).blk t).view.emb (ix2 k j)) = _
  rw [hi, arr2]

/-- The output-matrix tile at point t, place (q, k): the output matrix at row q, column 256·(t mod 48) + k. -/
theorem down_apply (c : Dev nD) (t : Fin cfg0.N) (q : Fin 4096) (k : Fin 256) (i : Fin 12288)
    (hi' : i.val = 256 * (t.val % 48) + k.val) :
    iblk m c 3 t (ix2 q k) = m ((c : Thread nD τ).loc main_arg3) (ix2 q i) := by
  obtain ⟨-, -, -, -, -, -, e0, e1⟩ := block_of_point t
  have hi : ((cfg0.win 3).blk t).view.emb (ix2 q k) = ix2 q i := by
    funext a; apply Fin.ext
    match a with
    | ⟨0, _⟩ => show win0_3.index t (0 : Fin 2) * 4096 + 1 * q.val = q.val; omega
    | ⟨1, _⟩ => show win0_3.index t (1 : Fin 2) * 256 + 1 * k.val = i.val; omega
  show (V m c main_v3 : S4096x12288.Idx → EReal) (((cfg0.win 3).blk t).view.emb (ix2 q k)) = _
  rw [hi, arr3]

end Cert.KernelIdeal.Blocks

end
-- ==== Proof.Fold.lean ====
/-
  The output array after the grid is the gated perceptron of the four arguments.

  An output block is visited at 48 consecutive points, one per hidden tile. The first of them stores zero and then
  adds its tile's contribution, each later one adds its tile's contribution to what the block held; so after the last
  the block holds 0 + Σ_s (tile s's contribution). Tile s's contribution at place (p, q) of row block r is the gated
  perceptron of rows 512·r + p of x, rows 256·s … 256·s + 255 of wg and wu, and the same columns of row q of wd.
  Hidden unit 256·s + k is position k of tile s, a bijection between 48 × 256 and the 12288 hidden units, so by the
  tile law the 48 contributions add up to the whole sum over the hidden axis at (512·r + p, q).
-/
import proofs.«134090_j20383914787225_2_alg».proof.Proof.Gen.KernelIdeal.Value
import proofs.«134090_j20383914787225_2_alg».proof.Proof.TileBody
import proofs.«134090_j20383914787225_2_alg».proof.Proof.Blocks
import proofs.«134090_j20383914787225_2_alg».proof.Proof.Spec

noncomputable section

namespace Cert.KernelIdeal.Fold

open Cert.KernelIdeal Cert.KernelIdeal.Gen Idealize.ShloMosaic Idealize.ShloMosaic.TcCoe Idealize.SL.Sem
open Idealize.ShloMosaic.ValueIdx GatedMlp

variable (m : (ℓ : Loc nD τ sig) → Buf (Elt Ideal) ℓ)

/-- Hidden unit 256·s + k is position k of tile s. -/
def tileEquiv : Fin 48 × Fin 256 ≃ Fin 12288 := finProdFinEquiv.trans (finCongr (by norm_num))

theorem tileEquiv_val (s : Fin 48) (k : Fin 256) : (tileEquiv (s, k)).val = k.val + 256 * s.val := rfl

/-- What point n adds to its output block: the gated perceptron of the point's four input blocks. (Past the grid,
    where there is no point, zero.) -/
def addend (c : Dev nD) (n : ℕ) : S512x4096.Idx → EReal := fun y =>
  if h : n < cfg0.N then
    outAt (iblk m c 0 ⟨n, h⟩ : Vec Ideal S512x4096 .bf16) (iblk m c 1 ⟨n, h⟩ : Vec Ideal S256x4096 .bf16)
      (iblk m c 2 ⟨n, h⟩ : Vec Ideal S256x4096 .bf16) (iblk m c 3 ⟨n, h⟩ : Vec Ideal S4096x256 .bf16) (y 0) (y 1)
  else 0

theorem addend_apply (c : Dev nD) (n : ℕ) (h : n < cfg0.N) (p : Fin 512) (q : Fin 4096) :
    addend m c n (ix2 p q)
      = outAt (iblk m c 0 ⟨n, h⟩ : Vec Ideal S512x4096 .bf16) (iblk m c 1 ⟨n, h⟩ : Vec Ideal S256x4096 .bf16)
          (iblk m c 2 ⟨n, h⟩ : Vec Ideal S256x4096 .bf16) (iblk m c 3 ⟨n, h⟩ : Vec Ideal S4096x256 .bf16) p q := by
  unfold addend
  rw [dif_pos h]

/-- A reduction's first point leaves zero plus its own contribution. -/
theorem reset_apply (c : Dev nD) (b : ℕ) (h : b < cfg0.N) (y : S512x4096.Idx) :
    Value.reset4 m c b h y = 0 + addend m c b y := by
  obtain ⟨p, q, rfl⟩ : ∃ (p : Fin 512) (q : Fin 4096), y = ix2 p q := ⟨y 0, y 1, eq_ix2 y⟩
  rw [addend_apply m c b h]
  unfold Value.reset4
  refine (TileBody.step_apply (iblk m c 0 ⟨b, h⟩) (iblk m c 1 ⟨b, h⟩) (iblk m c 2 ⟨b, h⟩) (iblk m c 3 ⟨b, h⟩)
    (k0_pay1 (F := Ideal)) p q).trans ?_
  rw [TileBody.zero_apply]

/-- Every later point leaves what the block held plus its own contribution. -/
theorem step_apply (c : Dev nD) (n : ℕ) (h : n < cfg0.N) (acc : Vec Ideal S512x4096 .f32) (y : S512x4096.Idx) :
    Value.step4 m c n h acc y = acc y + addend m c n y := by
  obtain ⟨p, q, rfl⟩ : ∃ (p : Fin 512) (q : Fin 4096), y = ix2 p q := ⟨y 0, y 1, eq_ix2 y⟩
  rw [addend_apply m c n h]
  unfold Value.step4
  exact TileBody.step_apply (iblk m c 0 ⟨n, h⟩) (iblk m c 1 ⟨n, h⟩) (iblk m c 2 ⟨n, h⟩) (iblk m c 3 ⟨n, h⟩) acc p q

/-- After the 48 points of a reduction starting at point b the block holds zero plus the 48 contributions. -/
theorem fold_apply (c : Dev nD) (b : ℕ) (hb : b + 47 < cfg0.N) (y : S512x4096.Idx) :
    Pipeline.accAt (Value.reset4 m c) (Value.step4 m c) b 47 hb y = 0 + ∑ s ∈ Finset.range 48, addend m c (b + s) y :=
  Pipeline.accAt_add_apply (ι := S512x4096.Idx) (β := EReal) (Value.reset4 m c) (Value.step4 m c) (fun _ => 0)
    (addend m c) b 47 (fun h y => reset_apply m c b h y) (fun n h acc y _ _ => step_apply m c n h acc y) 47 le_rfl hb y

/-- The output array after the grid is the gated perceptron of the four arguments. -/
theorem G4_eq (c : Dev nD) :
    (Value.G4 m c : S8192x4096.Idx → EReal)
      = out (m ((c : Thread nD τ).loc main_arg0)) (m ((c : Thread nD τ).loc main_arg1))
          (m ((c : Thread nD τ).loc main_arg2)) (m ((c : Thread nD τ).loc main_arg3)) := by
  funext i
  obtain ⟨t, q, rfl⟩ : ∃ (t : Fin 8192) (q : Fin 4096), i = ix2 t q := ⟨i 0, i 1, eq_ix2 i⟩
  have hN : cfg0.N = 768 := N_0
  have ht : t.val < 8192 := t.isLt
  have hq : q.val < 4096 := q.isLt
  have hR : Value.run4Of (ix2 t q) = t.val / 512 := by
    show 1 * (t.val / 512 - 0) + 1 * (q.val / 4096 - 0) = t.val / 512
    omega
  have hlt : 48 * Value.run4Of (ix2 t q) + 47 < cfg0.N := by rw [hR, hN]; omega
  have hpt : ∀ s : Fin 48, 48 * Value.run4Of (ix2 t q) + s.val < cfg0.N := fun s => by
    rw [hR, hN]; have := s.isLt; omega
  have hloc : Value.loc4Of (ix2 t q) = ix2 (⟨t.val % 512, Nat.mod_lt _ (by decide)⟩ : Fin 512) q :=
    funext fun a => Fin.ext (by
      match a with
      | ⟨0, _⟩ => rfl
      | ⟨1, _⟩ => exact Nat.mod_eq_of_lt hq)
  unfold Value.G4
  rw [dif_pos hlt, fold_apply, hloc, zero_add, Finset.sum_range, out_apply]
  refine (Finset.sum_congr rfl fun s _ => addend_apply m c _ (hpt s) _ q).trans ?_
  exact sum_tiles (m ((c : Thread nD τ).loc main_arg0)) (m ((c : Thread nD τ).loc main_arg1))
    (m ((c : Thread nD τ).loc main_arg2)) (m ((c : Thread nD τ).loc main_arg3))
    (fun s => (iblk m c 0 ⟨_, hpt s⟩ : Vec Ideal S512x4096 .bf16)) (fun s => (iblk m c 1 ⟨_, hpt s⟩ : Vec Ideal S256x4096 .bf16))
    (fun s => (iblk m c 2 ⟨_, hpt s⟩ : Vec Ideal S256x4096 .bf16)) (fun s => (iblk m c 3 ⟨_, hpt s⟩ : Vec Ideal S4096x256 .bf16))
    t ⟨t.val % 512, Nat.mod_lt _ (by decide)⟩ q tileEquiv
    (fun s j => Blocks.tokens_apply m c ⟨_, hpt s⟩ _ j t (by
      show t.val = 512 * ((48 * Value.run4Of (ix2 t q) + s.val) / 48) + t.val % 512
      rw [hR]; have := s.isLt; omega))
    (fun s k j => Blocks.gate_apply m c ⟨_, hpt s⟩ k j (tileEquiv (s, k)) (by
      rw [tileEquiv_val]
      show k.val + 256 * s.val = 256 * ((48 * Value.run4Of (ix2 t q) + s.val) % 48) + k.val
      have := s.isLt; omega))
    (fun s k j => Blocks.up_apply m c ⟨_, hpt s⟩ k j (tileEquiv (s, k)) (by
      rw [tileEquiv_val]
      show k.val + 256 * s.val = 256 * ((48 * Value.run4Of (ix2 t q) + s.val) % 48) + k.val
      have := s.isLt; omega))
    (fun s k => Blocks.down_apply m c ⟨_, hpt s⟩ q k (tileEquiv (s, k)) (by
      rw [tileEquiv_val]
      show k.val + 256 * s.val = 256 * ((48 * Value.run4Of (ix2 t q) + s.val) % 48) + k.val
      have := s.isLt; omega))

end Cert.KernelIdeal.Fold

end
-- ==== Proof.lean ====
/-
  A gated two-layer perceptron, out = (g · σ(g) · u) · wdᵀ with g = x · wgᵀ, u = x · wuᵀ and σ the logistic
  function, computed by a tiled kernel and by a plain reference, agree entry by entry over the extended reals.

  The kernel cuts the 8192 token rows into 16 blocks and the 12288 hidden units into 48 tiles. For one row block it
  walks the 48 tiles: at the first it zeroes the output block, and at every tile it adds the tile's contribution
  (g · σ(g) · u on the tile's 256 hidden units, times the tile's 256 columns of wd). The block written back after
  the last tile is therefore 0 + Σ_tiles Σ_(units of the tile), and the reference is the one sum over all 12288
  hidden units. The two are the same finite sum of extended reals grouped differently; regrouping needs only that
  addition is commutative and associative, which holds with the infinities too, so nothing is asked of the inputs
  beyond what the claim assumes (and that assumption is not used). Narrowing to half precision is the identity
  here, the kernel's logistic operation and the reference's written-out 1 / (1 + e^(−g)) are one function by
  definition, and every matrix product is the plain sum over its contracted axis.

  Spec.lean states the function and the regrouping law; RefSpec.lean reads the reference's stages as that function;
  TileBody.lean reads one grid point's stored value; Blocks.lean reads a point's input blocks as entries of the
  arguments; Fold.lean adds the 48 contributions of a row block and concludes for the whole output array.
-/
import proofs.«134090_j20383914787225_2_alg».proof.Defs
import proofs.«134090_j20383914787225_2_alg».proof.Proof.Gen.Kernel.Frame
import proofs.«134090_j20383914787225_2_alg».proof.Proof.Gen.KernelIdeal.Value
import proofs.«134090_j20383914787225_2_alg».proof.Proof.Gen.Pre_finite_inputs
import proofs.«134090_j20383914787225_2_alg».proof.Proof.Gen.ReferenceIdeal.Run
import proofs.«134090_j20383914787225_2_alg».proof.Proof.Gen.ReferenceIdeal.Read
import proofs.«134090_j20383914787225_2_alg».proof.Proof.RefSpec
import proofs.«134090_j20383914787225_2_alg».proof.Proof.Fold
import Idealize.ShloMosaic.Adequacy
import Idealize.ShloMosaic.Init

noncomputable section

namespace Cert.Proof

open Idealize.ShloMosaic Idealize.SL.Sem

/-- The idealized kernel terminates without a fault and leaves its arguments as they were: its value run, with the
    statement about the output dropped. -/
theorem frame_KernelIdeal : frame_KernelIdeal := fun m ρ _ =>
  (θ_run Cert.KernelIdeal.defs _ _).mono (fun _ h c => (h c).2) (Cert.KernelIdeal.Value.run (F := Ideal) m ρ)

/-- The same for the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on the four arguments, both programs end, and each ends with the gated perceptron
    of those arguments in its result: the kernel by the 48-tile fold of every row block, the reference by its four
    host stages. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact ((Cert.ReferenceIdeal.Read.val_main_v4_eq (F := Ideal) _ _ _ _).trans
    (Cert.ReferenceIdeal.RefSpec.ref_eq _ _ _ _)).trans (Cert.KernelIdeal.Fold.G4_eq m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
